-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x4096x3 : Shape := ⟨3, ![4, 4096, 3]⟩
abbrev S4x4096x16 : Shape := ⟨3, ![4, 4096, 16]⟩
abbrev S4x4x16 : Shape := ⟨3, ![4, 4, 16]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x4096x3 : S_.BroadcastsInDim S4x4096x3 (![] : Fin 0 → Fin S4x4096x3.rank)
  reducesTo_S4x4096x3_S_d0_1_2 : S4x4096x3.ReducesTo [0, 1, 2] S_
  bcast_S_S4x4096x16 : S_.BroadcastsInDim S4x4096x16 (![] : Fin 0 → Fin S4x4096x16.rank)
  reducesTo_S4x4096x16_S_d0_1_2 : S4x4096x16.ReducesTo [0, 1, 2] S_
  bcast_S_S4x4x16 : S_.BroadcastsInDim S4x4x16 (![] : Fin 0 → Fin S4x4x16.rank)
  reducesTo_S4x4x16_S_d0_1_2 : S4x4x16.ReducesTo [0, 1, 2] S_

variable [Facts]

def fn_part1 {F : FTy → Type} [FloatOps F] (main_v13 : IVec S_ 1) (main_v16 : IVec S4x4x16 1) : IVec S_ 1 :=
  let main_c_5 : IVec S_ 1 := constantI S_ 1 1#1
  let main_v17 : IVec S_ 1 := (fun x v => Host.reduce IntOp.andi x v reducesTo_S4x4x16_S_d0_1_2 h_S_) main_v16 main_c_5
  let main_v18 : IVec S_ 1 := andi main_v13 main_v17
  main_v18

def fn {F : FTy → Type} [FloatOps F] (main_arg0 : FVec F S4x8192x3 .f32) (main_arg1 : FVec F S4x4096x3 .f32) (main_arg2 : FVec F S4x4096x16 .f32) (main_arg3 : FVec F S4x4x16 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x16 .f32 := Host.absf main_arg2
  let main_cst_2 : FVec F S_ .f32 := constant S_ .f32 0x7F800000#32
  let main_v10 : FVec F S4x4096x16 .f32 := broadcastInDim S4x4096x16 ![] bcast_S_S4x4096x16 main_cst_2
  let main_v11 : IVec S4x4096x16 1 := cmpf .olt main_v9 main_v10
  let main_c_3 : IVec S_ 1 := constantI S_ 1 1#1
  let main_v12 : IVec S_ 1 := (fun x v => Host.reduce IntOp.andi x v reducesTo_S4x4096x16_S_d0_1_2 h_S_) main_v11 main_c_3
  let main_v13 : IVec S_ 1 := andi main_v8 main_v12
  let main_v14 : FVec F S4x4x16 .f32 := Host.absf main_arg3
  let main_cst_4 : FVec F S_ .f32 := constant S_ .f32 0x7F800000#32
  let main_v15 : FVec F S4x4x16 .f32 := broadcastInDim S4x4x16 ![] bcast_S_S4x4x16 main_cst_4
  let main_v16 : IVec S4x4x16 1 := cmpf .olt main_v14 main_v15
  fn_part1 (F := F) main_v13 main_v16
-- ==== Kernel.lean ====
abbrev S4x8192x3 : Shape := ⟨3, ![4, 8192, 3]⟩
abbrev S4x4096x3 : Shape := ⟨3, ![4, 4096, 3]⟩
abbrev S4x4096x16 : Shape := ⟨3, ![4, 4096, 16]⟩
abbrev S4x4x16 : Shape := ⟨3, ![4, 4, 16]⟩
abbrev S4x8192x16 : Shape := ⟨3, ![4, 8192, 16]⟩
abbrev S1x1024x3 : Shape := ⟨3, ![1, 1024, 3]⟩
abbrev S1x512x3 : Shape := ⟨3, ![1, 512, 3]⟩
abbrev S1x512x16 : Shape := ⟨3, ![1, 512, 16]⟩
abbrev S1x4x16 : Shape := ⟨3, ![1, 4, 16]⟩
abbrev S1x1024x16 : Shape := ⟨3, ![1, 1024, 16]⟩
abbrev S1024x3 : Shape := ⟨2, ![1024, 3]⟩
abbrev S512x3 : Shape := ⟨2, ![512, 3]⟩
abbrev S512x16 : Shape := ⟨2, ![512, 16]⟩
abbrev S4x16 : Shape := ⟨2, ![4, 16]⟩
abbrev S3x16 : Shape := ⟨2, ![3, 16]⟩
abbrev S1x16 : Shape := ⟨2, ![1, 16]⟩
abbrev S1024x16 : Shape := ⟨2, ![1024, 16]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x4096x3, .f32⟩
  | .hbm, ⟨2, _⟩ => ⟨S4x4096x16, .f32⟩
  | .hbm, ⟨3, _⟩ => ⟨S4x4x16, .f32⟩
  | .hbm, ⟨4, _⟩ => ⟨S4x8192x16, .f32⟩
  | .local _ .vmem, ⟨0, _⟩ => ⟨S1x1024x3, .f32⟩
  | .local _ .vmem, ⟨1, _⟩ => ⟨S1x1024x3, .f32⟩
  | .local _ .vmem, ⟨2, _⟩ => ⟨S1x512x3, .f32⟩
  | .local _ .vmem, ⟨3, _⟩ => ⟨S1x512x3, .f32⟩
  | .local _ .vmem, ⟨4, _⟩ => ⟨S1x512x16, .f32⟩
  | .local _ .vmem, ⟨5, _⟩ => ⟨S1x512x16, .f32⟩
  | .local _ .vmem, ⟨6, _⟩ => ⟨S1x4x16, .f32⟩
  | .local _ .vmem, ⟨7, _⟩ => ⟨S1x4x16, .f32⟩
  | .local _ .vmem, ⟨8, _⟩ => ⟨S1x1024x16, .f32⟩
  | .local _ .vmem, ⟨9, _⟩ => ⟨S1x1024x16, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x4x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  inb_S1x4x16_S1x4x16_0_0_0 : ∀ a, (![0, 0, 0] : Fin 3 → Nat) a + S1x4x16.size a ≤ S1x4x16.size a
  h_S1x4x16 : 0 < S1x4x16.numel
  shapeCasts_S1x4x16_S4x16 : S1x4x16.ShapeCasts S4x16
  slices_S4x16_o0_0_S3x16 : S4x16.Slices ![0, 0] S3x16
  slices_S4x16_o3_0_S1x16 : S4x16.Slices ![3, 0] S1x16
  broadcasts_S1x16_S1024x16 : S1x16.Broadcasts S1024x16
  inb_S1x1024x16_S1x1024x16_0_0_0 : ∀ a, (![0, 0, 0] : Fin 3 → Nat) a + S1x1024x16.size a ≤ S1x1024x16.size a
  h_S1x1024x16 : 0 < S1x1024x16.numel
  shapeCasts_S1x1024x16_S1024x16 : S1x1024x16.ShapeCasts S1024x16
  shapeCasts_S1024x16_S1x1024x16 : S1024x16.ShapeCasts S1x1024x16
  reduces_S1024x3_S1024 : S1024x3.Reduces [1] S1024
  shapeCasts_S1024_S1024x1 : S1024.ShapeCasts S1024x1
  reduces_S512x3_S512 : S512x3.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  bitsLt_bf16_f32 : FTy.bits .bf16 < FTy.bits .f32
  dot_S1024x3_S3x16_S1024x16_1_0_0_1_n_n_wf : DotDims.WF S1024x3 S3x16 S1024x16 [1] [0] [0] [1] [] []
  dot_S1024x3_S512x3_S1024x512_1_1_0_0_n_n_wf : DotDims.WF S1024x3 S512x3 S1024x512 [1] [1] [0] [0] [] []
  dot_S1024x512_S512x16_S1024x16_1_0_0_1_n_n_wf : DotDims.WF S1024x512 S512x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x4096x3.size a
  hwx0_1 : ∀ i : grid0.Coords, EltTy.bits .f32 = 32 ∨ (Rect.block (s := S4x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x16.size a ≤ S4x4096x16.size a
  hwx0_2 : ∀ i : grid0.Coords, EltTy.bits .f32 = 32 ∨ (Rect.block (s := S4x4096x16) S1x512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x16.size a ≤ S4x4x16.size a
  hwx0_3 : ∀ i : grid0.Coords, EltTy.bits .f32 = 32 ∨ (Rect.block (s := S4x4x16) S1x4x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x16.size a ≤ S4x8192x16.size a
  hwx0_4 : ∀ i : grid0.Coords, EltTy.bits .f32 = 32 ∨ (Rect.block (s := S4x8192x16) S1x1024x16.size (cc0_transform_4 i) (hinb0_4 i)).WholeWords (EltTy.packing .f32)

variable [Facts₀]

def dot_S1024x3_S3x16_S1024x16_1_0_0_1_n_n : DotDims S1024x3 S3x16 S1024x16 where
  lhsContracting := [1]
  rhsContracting := [0]
  lhsNonContracting := [0]
  rhsNonContracting := [1]
  lhsBatch := []
  rhsBatch := []
  wf := dot_S1024x3_S3x16_S1024x16_1_0_0_1_n_n_wf
def dot_S1024x3_S512x3_S1024x512_1_1_0_0_n_n : DotDims S1024x3 S512x3 S1024x512 where
  lhsContracting := [1]
  rhsContracting := [1]
  lhsNonContracting := [0]
  rhsNonContracting := [0]
  lhsBatch := []
  rhsBatch := []
  wf := dot_S1024x3_S512x3_S1024x512_1_1_0_0_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S4x4096x3 : Shape := ⟨3, ![4, 4096, 3]⟩
abbrev S4x4096x16 : Shape := ⟨3, ![4, 4096, 16]⟩
abbrev S4x4x16 : Shape := ⟨3, ![4, 4, 16]⟩
abbrev S_ : Shape := ⟨0, ![]⟩
abbrev S4x8192 : Shape := ⟨2, ![4, 8192]⟩
abbrev S4x8192x1 : Shape := ⟨3, ![4, 8192, 1]⟩
abbrev S4x4096 : Shape := ⟨2, ![4, 4096]⟩
abbrev S4x1x4096 : Shape := ⟨3, ![4, 1, 4096]⟩
abbrev S4x8192x4096 : Shape := ⟨3, ![4, 8192, 4096]⟩
abbrev S4x8192x16 : Shape := ⟨3, ![4, 8192, 16]⟩
abbrev S4x8192x4 : Shape := ⟨3, ![4, 8192, 4]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x4096x3, .f32⟩
  | .hbm, ⟨2, _⟩ => ⟨S4x4096x16, .f32⟩
  | .hbm, ⟨3, _⟩ => ⟨S4x4x16, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S4x4096x3, .f32⟩
  | .hbm, ⟨9, _⟩ => ⟨S_, .f32⟩
  | .hbm, ⟨10, _⟩ => ⟨S4x4096, .f32⟩
  | .hbm, ⟨11, _⟩ => ⟨S4x1x4096, .f32⟩
  | .hbm, ⟨12, _⟩ => ⟨S4x8192x4096, .f32⟩
  | .hbm, ⟨13, _⟩ => ⟨S4x8192x4096, .f32⟩
  | .hbm, ⟨14, _⟩ => ⟨S4x8192x4096, .f32⟩
  | .hbm, ⟨15, _⟩ => ⟨S4x8192x4096, .f32⟩
  | .hbm, ⟨16, _⟩ => ⟨S_, .f32⟩
  | .hbm, ⟨17, _⟩ => ⟨S4x8192x4096, .f32⟩
  | .hbm, ⟨18, _⟩ => ⟨S4x8192x4096, .f32⟩
  | .hbm, ⟨19, _⟩ => ⟨S4x8192x4096, .f32⟩
  | .hbm, ⟨20, _⟩ => ⟨S_, .f32⟩
  | .hbm, ⟨21, _⟩ => ⟨S4x8192x4096, .f32⟩
  | .hbm, ⟨22, _⟩ => ⟨S4x8192x4096, .f32⟩
  | .hbm, ⟨23, _⟩ => ⟨S_, .f32⟩
  | .hbm, ⟨24, _⟩ => ⟨S4x8192x4096, .f32⟩
  | .hbm, ⟨25, _⟩ => ⟨S4x8192x4096, .f32⟩
  | .hbm, ⟨26, _⟩ => ⟨S4x8192x16, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x4, .f32⟩
  | .hbm, ⟨31, _⟩ => ⟨S4x8192x16, .f32⟩
  | .hbm, ⟨32, _⟩ => ⟨S4x8192x16, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  reducesTo_S4x4096x3_S4x4096_d2 : S4x4096x3.ReducesTo [2] S4x4096
  bcast_S4x4096_S4x1x4096_0_2 : S4x4096.BroadcastsInDim S4x1x4096 (![0, 2] : Fin 2 → Fin S4x1x4096.rank)
  bcast_S4x8192x1_S4x8192x4096_0_1_2 : S4x8192x1.BroadcastsInDim S4x8192x4096 (![0, 1, 2] : Fin 3 → Fin S4x8192x4096.rank)
  bcast_S4x1x4096_S4x8192x4096_0_1_2 : S4x1x4096.BroadcastsInDim S4x8192x4096 (![0, 1, 2] : Fin 3 → Fin S4x8192x4096.rank)
  bcast_S_S4x8192x4096 : S_.BroadcastsInDim S4x8192x4096 (![] : Fin 0 → Fin S4x8192x4096.rank)
  slices_S4x8192x3_S4x8192x1_0_0_0 : S4x8192x3.Slices ![0, 0, 0] S4x8192x1
  bcast_S_S4x8192x1 : S_.BroadcastsInDim S4x8192x1 (![] : Fin 0 → Fin S4x8192x1.rank)
  concatenates_S4x8192x3_S4x8192x1_S4x8192x4_d2 : Shape.Concatenates [S4x8192x3, S4x8192x1] S4x8192x4 2
  dot_S4x8192x3_S4x4096x3_S4x8192x4096_2_2_1_1_0_0_wf : DotDims.WF S4x8192x3 S4x4096x3 S4x8192x4096 [2] [2] [1] [1] [0] [0]
  dot_S4x8192x4096_S4x4096x16_S4x8192x16_2_1_1_2_0_0_wf : DotDims.WF S4x8192x4096 S4x4096x16 S4x8192x16 [2] [1] [1] [2] [0] [0]
  dot_S4x8192x4_S4x4x16_S4x8192x16_2_1_1_2_0_0_wf : DotDims.WF S4x8192x4 S4x4x16 S4x8192x16 [2] [1] [1] [2] [0] [0]

variable [Facts₀]

def dot_S4x8192x3_S4x4096x3_S4x8192x4096_2_2_1_1_0_0 : DotDims S4x8192x3 S4x4096x3 S4x8192x4096 where
  lhsContracting := [2]
  rhsContracting := [2]
  lhsNonContracting := [1]
  rhsNonContracting := [1]
  lhsBatch := [0]
  rhsBatch := [0]
  wf := dot_S4x8192x3_S4x4096x3_S4x8192x4096_2_2_1_1_0_0_wf
def dot_S4x8192x4096_S4x4096x16_S4x8192x16_2_1_1_2_0_0 : DotDims S4x8192x4096 S4x4096x16 S4x8192x16 where
  lhsContracting := [2]
  rhsContracting := [1]
  lhsNonContracting := [1]
  rhsNonContracting := [2]
  lhsBatch := [0]
  rhsBatch := [0]
  wf := dot_S4x8192x4096_S4x4096x16_S4x8192x16_2_1_1_2_0_0_wf
def dot_S4x8192x4_S4x4x16_S4x8192x16_2_1_1_2_0_0 : DotDims S4x8192x4 S4x4x16 S4x8192x16 where
  lhsContracting := [2]
  rhsContracting := [1]
  lhsNonContracting := [1]
  rhsNonContracting := [2]
  lhsBatch := [0]
  rhsBatch := [0]
  wf := dot_S4x8192x4_S4x4x16_S4x8192x16_2_1_1_2_0_0_wf

class Facts : Prop extends Facts₀ where

variable [Facts]
-- ==== Proof.RadialLaw.lean ====
/-
  The cube of a distance from its clamped square, on the extended reals.

  Both programs clamp the squared distance from below, `y = max z ε`, and then take the distance cubed: the kernel as
  `y · √y`, the reference as `y ^ (3/2)`.  On the non-negative extended reals these are one function: for a real
  `y ≥ 0`, `y · y^(1/2) = y^(1 + 1/2)`; at `+∞` both are `+∞`.  Below zero they differ (the square root of a
  negative number and a negative base to a fractional power are read differently), so the law needs the floor `ε` of
  the clamp to be non-negative — it is the positive dyadic `14411519 · 2⁻⁵⁷`, the single-precision number nearest
  to `10⁻¹⁰` — and nothing else: no finiteness of `z` is used.
-/
import Idealize.ShloMosaic.PureOps.Ideal
import Mathlib

noncomputable section

namespace Cert.Radial

open Idealize.ShloMosaic

/-- The reference's exponent: the single-precision pattern `0x3FC00000` is exactly `3/2`. -/
theorem ofBits_threeHalves : Ideal.ofBits .f32 0x3FC00000#32 = ((3 / 2 : ℝ) : EReal) := by
  simp [Ideal.ofBits, Ideal.ieee, -EReal.coe_mul]; norm_num

/-- The clamp's floor, the pattern `0x2EDBE6FF`, is the dyadic `14411519 · 2⁻⁵⁷`. -/
theorem ofBits_floor : Ideal.ofBits .f32 0x2EDBE6FF#32 = ((14411519 * (2 : ℝ) ^ (-57 : ℤ) : ℝ) : EReal) := by
  simp [Ideal.ofBits, Ideal.ieee, -EReal.coe_mul]

/-- … so it is non-negative. -/
theorem floor_nonneg : (0 : EReal) ≤ Ideal.ofBits .f32 0x2EDBE6FF#32 := by
  rw [ofBits_floor]
  exact_mod_cast (by positivity : (0 : ℝ) ≤ 14411519 * (2 : ℝ) ^ (-57 : ℤ))

/-- On the non-negative extended reals, `y · √y = y ^ (3/2)`. -/
theorem mul_sqrt_eq_pow (y : EReal) (hy : 0 ≤ y) : y * Ideal.sqrt y = Ideal.pow y ((3 / 2 : ℝ) : EReal) := by
  induction y using EReal.rec with
  | bot => exact absurd hy (by simp)
  | top =>
    show (⊤ : EReal) * ⊤ = if (0 : EReal) < ((3 / 2 : ℝ) : EReal) then ⊤ else _
    rw [if_pos (by exact_mod_cast (by norm_num : (0 : ℝ) < 3 / 2))]
    exact EReal.top_mul_top
  | coe r =>
    have hr : 0 ≤ r := by exact_mod_cast hy
    show (r : EReal) * (if r < 0 then ⊥ else (Real.sqrt r : EReal)) = (Real.rpow r (3 / 2) : EReal)
    rw [if_neg (not_lt.mpr hr), ← EReal.coe_mul]
    congr 1
    rw [Real.rpow_eq_pow, show (3 / 2 : ℝ) = 1 + 1 / 2 by norm_num, Real.rpow_add' hr (by norm_num), Real.rpow_one,
      Real.sqrt_eq_rpow]

/-- The clamped form both programs use: with a non-negative floor `e`, `max z e · √(max z e) = (max z e) ^ (3/2)`
    for EVERY extended real `z`. -/
theorem clamp_mul_sqrt_eq_pow (z e : EReal) (he : 0 ≤ e) :
    max z e * Ideal.sqrt (max z e) = Ideal.pow (max z e) ((3 / 2 : ℝ) : EReal) :=
  mul_sqrt_eq_pow _ (le_max_of_le_right he)

end Cert.Radial

end
-- ==== Proof.RbfSpec.lean ====
/-
  The polyharmonic interpolant, entry by entry, on the extended reals.

  For a batch `p`, a query point `q` and an output channel `k` the interpolant is

      Σ_d x[p,q,d] · v[p,d,k]  +  v[p,3,k]  +  Σ_n φ(p,q,n) · w[p,n,k],

  where `φ(p,q,n)` is the cube of the distance from query `q` to centre `n`, computed from the squared distance
  `‖x‖² + ‖c‖² − 2·⟨x,c⟩` clamped from below at `ε`.  This module states the pieces over index functions of any
  extents — so that the same definitions read a block of rows and the whole array — and the sum over the centres in the
  grouping the kernel uses: eight consecutive blocks of 512 centres.  The two ways of writing the cube, `y·√y` and
  `y^(3/2)`, are one function here (Proof/RadialLaw.lean).
-/
import proofs.«180637_j43404939493678_1_alg».proof.Proof.RadialLaw
import Idealize.ShloMosaic.Lib.ValueIdx

noncomputable section

namespace Cert.Rbf

open Idealize.ShloMosaic Idealize.ShloMosaic.ValueIdx

/-- The squared distance from its three parts, clamped from below: `max (xx + cc − 2·xc) ε`. -/
def clampSq (xx cc xc : EReal) : EReal :=
  max (xx + cc - Ideal.ofBits .f32 0x40000000#32 * xc) (Ideal.ofBits .f32 0x2EDBE6FF#32)

/-- The distance cubed as the square times its root. -/
def cubeRoot (xx cc xc : EReal) : EReal := clampSq xx cc xc * Ideal.sqrt (clampSq xx cc xc)

/-- The distance cubed as the power `3/2` of the square. -/
def cubePow (xx cc xc : EReal) : EReal := Ideal.pow (clampSq xx cc xc) (Ideal.ofBits .f32 0x3FC00000#32)

/-- The two are one function: the clamp's floor is non-negative. -/
theorem cubePow_eq_cubeRoot (xx cc xc : EReal) : cubePow xx cc xc = cubeRoot xx cc xc := by
  unfold cubePow cubeRoot clampSq
  rw [Cert.Radial.ofBits_threeHalves]
  exact (Cert.Radial.clamp_mul_sqrt_eq_pow _ _ Cert.Radial.floor_nonneg).symm

variable {a b n : ℕ}

/-- `‖X[p,q,:]‖²` over the three coordinates. -/
def sqNorm (X : (⟨3, ![a, b, 3]⟩ : Shape).Idx → EReal) (p : Fin a) (q : Fin b) : EReal :=
  ∑ d : Fin 3, X (ix3 p q d) * X (ix3 p q d)

/-- `⟨X[p,q,:], C[p,j,:]⟩`. -/
def inner (X : (⟨3, ![a, b, 3]⟩ : Shape).Idx → EReal) (C : (⟨3, ![a, n, 3]⟩ : Shape).Idx → EReal) (p : Fin a) (q : Fin b)
    (j : Fin n) : EReal :=
  ∑ d : Fin 3, X (ix3 p q d) * C (ix3 p j d)

/-- Centre `j`'s contribution to entry `(p, q, k)`: the cubed distance times the centre's weight. -/
def centreTerm (X : (⟨3, ![a, b, 3]⟩ : Shape).Idx → EReal) (C : (⟨3, ![a, n, 3]⟩ : Shape).Idx → EReal)
    (W : (⟨3, ![a, n, 16]⟩ : Shape).Idx → EReal) (p : Fin a) (q : Fin b) (k : Fin 16) (j : Fin n) : EReal :=
  cubeRoot (sqNorm X p q) (sqNorm C p j) (inner X C p q j) * W (ix3 p j k)

/-- The affine part of entry `(p, q, k)`: the three coordinates against rows 0–2 of `V`, plus row 3. -/
def affine (X : (⟨3, ![a, b, 3]⟩ : Shape).Idx → EReal) (V : (⟨3, ![a, 4, 16]⟩ : Shape).Idx → EReal) (p : Fin a) (q : Fin b)
    (k : Fin 16) : EReal :=
  (∑ d : Fin 3, X (ix3 p q d) * V (ix3 p (Fin.castSucc d) k)) + V (ix3 p (3 : Fin 4) k)

/-- Entry `(p, q, k)` of the interpolant of the whole arrays, the 4096 centres taken as eight consecutive blocks of
    512: block `s` holds the centres `512·s + j`, `j < 512`. -/
def interpolant (X : (⟨3, ![4, 8192, 3]⟩ : Shape).Idx → EReal) (C : (⟨3, ![4, 4096, 3]⟩ : Shape).Idx → EReal)
    (W : (⟨3, ![4, 4096, 16]⟩ : Shape).Idx → EReal) (V : (⟨3, ![4, 4, 16]⟩ : Shape).Idx → EReal)
    (p : Fin 4) (q : Fin 8192) (k : Fin 16) : EReal :=
  affine X V p q k + ∑ s ∈ Finset.range 8, ∑ j : Fin 512,
    centreTerm X C W p q k ⟨(512 * s + j.val) % 4096, Nat.mod_lt _ (by decide)⟩

end Cert.Rbf

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.KernelPayload.lean ====
/-
  What one grid point's arithmetic computes, entry by entry.

  At a grid point the kernel holds a block of 1024 query rows `x0`, a block of 512 centres `x1` with their weights
  `x2`, and the running output block `acc`.  Entry `(r, k)` of what it leaves is `acc[r,k]` plus the sum over the
  block's 512 centres of the cubed distance from row `r` to the centre times the centre's weight for channel `k`; and
  at the first point of a run the running block is first set to the affine part, the row against the first three rows
  of the 4×16 block `x3` plus its fourth row.  Each matrix product is read as the plain sum over its one contracted
  axis, each row sum as the sum over the three coordinates, and the casts, the transpose and the broadcasts only move
  indices.
-/
import proofs.«180637_j43404939493678_1_alg».proof.Proof.Gen.KernelIdeal.Skeleton
import proofs.«180637_j43404939493678_1_alg».proof.Proof.RbfSpec
import proofs.«180637_j43404939493678_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Cert.Rbf

/-! ## Row sums of squares -/

/-- The sum of a 1024×3 block's squares along its rows, at row `r`. -/
theorem rowSq1024 (v : FVec Ideal S1024x3 .f32) (h : S1024x3.Reduces [1] S1024) (hφ : FKind.Formats .f32)
    (hacc : (0x00000000#32 : BitVec 32) = FKind.add.neutral .f32 hφ) (r : Fin 1024) :
    multiReduction .add [1] S1024 (mulf v v) 0x00000000#32 h hφ hacc (ix1 r) = ∑ d : Fin 3, v (ix2 r d) * v (ix2 r d) := by
  refine (Ideal.multiReduction_add_single (mulf v v) 0x00000000#32 h hφ hacc (ix1 r)).trans ?_
  refine Finset.sum_congr rfl fun d _ => ?_
  have e : h.lift (ix1 r) d = ix2 r d := funext fun a => Fin.ext (by
    match a with
    | ⟨0, _⟩ => rfl
    | ⟨1, _⟩ => rfl)
  rw [e]; rfl

/-- The sum of a 512×3 block's squares along its rows, at row `j`. -/
theorem rowSq512 (v : FVec Ideal S512x3 .f32) (h : S512x3.Reduces [1] S512) (hφ : FKind.Formats .f32)
    (hacc : (0x00000000#32 : BitVec 32) = FKind.add.neutral .f32 hφ) (j : Fin 512) :
    multiReduction .add [1] S512 (mulf v v) 0x00000000#32 h hφ hacc (ix1 j) = ∑ d : Fin 3, v (ix2 j d) * v (ix2 j d) := by
  refine (Ideal.multiReduction_add_single (mulf v v) 0x00000000#32 h hφ hacc (ix1 j)).trans ?_
  refine Finset.sum_congr rfl fun d _ => ?_
  have e : h.lift (ix1 j) d = ix2 j d := funext fun a => Fin.ext (by
    match a with
    | ⟨0, _⟩ => rfl
    | ⟨1, _⟩ => rfl)
  rw [e]; rfl

/-! ## The three matrix products, as sums over the contracted axis

For each product: where the operands are read at output entry `i` and contraction index `q` (the kept axis of each
operand follows the output's, the contracted axis follows `q`), then the product as a sum over the contracted axis. -/

theorem cross_l0 (i : S1024x512.Idx) (q : dot_S1024x3_S512x3_S1024x512_1_1_0_0_n_n.contr.Idx) :
    (dot_S1024x3_S512x3_S1024x512_1_1_0_0_n_n.lhsIdx i q 0).val = (i 0).val := by
  unfold DotDims.lhsIdx
  rw [dif_neg (show ¬(0 : Fin S1024x3.rank) ∈ dot_S1024x3_S512x3_S1024x512_1_1_0_0_n_n.lhsBatch by decide),
    dif_pos (show (0 : Fin S1024x3.rank) ∈ dot_S1024x3_S512x3_S1024x512_1_1_0_0_n_n.lhsNonContracting by decide)]
  rfl
theorem cross_l1 (i : S1024x512.Idx) (q : dot_S1024x3_S512x3_S1024x512_1_1_0_0_n_n.contr.Idx) :
    (dot_S1024x3_S512x3_S1024x512_1_1_0_0_n_n.lhsIdx i q 1).val = (q ⟨0, by decide⟩).val :=
  dot_S1024x3_S512x3_S1024x512_1_1_0_0_n_n.lhsIdx_val_of_single rfl i q
theorem cross_r0 (i : S1024x512.Idx) (q : dot_S1024x3_S512x3_S1024x512_1_1_0_0_n_n.contr.Idx) :
    (dot_S1024x3_S512x3_S1024x512_1_1_0_0_n_n.rhsIdx i q 0).val = (i 1).val := by
  unfold DotDims.rhsIdx
  rw [dif_neg (show ¬(0 : Fin S512x3.rank) ∈ dot_S1024x3_S512x3_S1024x512_1_1_0_0_n_n.rhsBatch by decide),
    dif_pos (show (0 : Fin S512x3.rank) ∈ dot_S1024x3_S512x3_S1024x512_1_1_0_0_n_n.rhsNonContracting by decide)]
  rfl
theorem cross_r1 (i : S1024x512.Idx) (q : dot_S1024x3_S512x3_S1024x512_1_1_0_0_n_n.contr.Idx) :
    (dot_S1024x3_S512x3_S1024x512_1_1_0_0_n_n.rhsIdx i q 1).val = (q ⟨0, by decide⟩).val :=
  dot_S1024x3_S512x3_S1024x512_1_1_0_0_n_n.rhsIdx_val_of_single rfl i q

/-- Rows against the rows of another block (both contracted along their three columns): entry `(r, j)`. -/
theorem cross_apply (v : FVec Ideal S1024x3 .f32) (w : FVec Ideal S512x3 .f32) (r : Fin 1024) (j : Fin 512) :
    matmul dot_S1024x3_S512x3_S1024x512_1_1_0_0_n_n (some .fp32) v w (constant S1024x512 .f32 0x00000000#32) (ix2 r j)
      = ∑ d : Fin 3, v (ix2 r d) * w (ix2 j d) := by
  simp only [matmul]
  rw [Ideal.matmul_constant_zero_apply, ← Equiv.sum_comp (contrEquiv1 dot_S1024x3_S512x3_S1024x512_1_1_0_0_n_n 3 rfl rfl).symm]
  refine Finset.sum_congr rfl fun d _ => ?_
  have hd := contrEquiv1_symm_val dot_S1024x3_S512x3_S1024x512_1_1_0_0_n_n 3 rfl rfl d
  have el : dot_S1024x3_S512x3_S1024x512_1_1_0_0_n_n.lhsIdx (ix2 r j) ((contrEquiv1 dot_S1024x3_S512x3_S1024x512_1_1_0_0_n_n 3 rfl rfl).symm d) = ix2 r d :=
    funext fun a => Fin.ext (by
      match a with
      | ⟨0, _⟩ => exact cross_l0 _ _
      | ⟨1, _⟩ => exact (cross_l1 _ _).trans hd)
  have er : dot_S1024x3_S512x3_S1024x512_1_1_0_0_n_n.rhsIdx (ix2 r j) ((contrEquiv1 dot_S1024x3_S512x3_S1024x512_1_1_0_0_n_n 3 rfl rfl).symm d) = ix2 j d :=
    funext fun a => Fin.ext (by
      match a with
      | ⟨0, _⟩ => exact cross_r0 _ _
      | ⟨1, _⟩ => exact (cross_r1 _ _).trans hd)
  rw [el, er]

theorem affineProd_l0 (i : S1024x16.Idx) (q : dot_S1024x3_S3x16_S1024x16_1_0_0_1_n_n.contr.Idx) :
    (dot_S1024x3_S3x16_S1024x16_1_0_0_1_n_n.lhsIdx i q 0).val = (i 0).val := by
  unfold DotDims.lhsIdx
  rw [dif_neg (show ¬(0 : Fin S1024x3.rank) ∈ dot_S1024x3_S3x16_S1024x16_1_0_0_1_n_n.lhsBatch by decide),
    dif_pos (show (0 : Fin S1024x3.rank) ∈ dot_S1024x3_S3x16_S1024x16_1_0_0_1_n_n.lhsNonContracting by decide)]
  rfl
theorem affineProd_l1 (i : S1024x16.Idx) (q : dot_S1024x3_S3x16_S1024x16_1_0_0_1_n_n.contr.Idx) :
    (dot_S1024x3_S3x16_S1024x16_1_0_0_1_n_n.lhsIdx i q 1).val = (q ⟨0, by decide⟩).val :=
  dot_S1024x3_S3x16_S1024x16_1_0_0_1_n_n.lhsIdx_val_of_single rfl i q
theorem affineProd_r0 (i : S1024x16.Idx) (q : dot_S1024x3_S3x16_S1024x16_1_0_0_1_n_n.contr.Idx) :
    (dot_S1024x3_S3x16_S1024x16_1_0_0_1_n_n.rhsIdx i q 0).val = (q ⟨0, by decide⟩).val :=
  dot_S1024x3_S3x16_S1024x16_1_0_0_1_n_n.rhsIdx_val_of_single rfl i q
theorem affineProd_r1 (i : S1024x16.Idx) (q : dot_S1024x3_S3x16_S1024x16_1_0_0_1_n_n.contr.Idx) :
    (dot_S1024x3_S3x16_S1024x16_1_0_0_1_n_n.rhsIdx i q 1).val = (i 1).val := by
  unfold DotDims.rhsIdx
  rw [dif_neg (show ¬(1 : Fin S3x16.rank) ∈ dot_S1024x3_S3x16_S1024x16_1_0_0_1_n_n.rhsBatch by decide),
    dif_pos (show (1 : Fin S3x16.rank) ∈ dot_S1024x3_S3x16_S1024x16_1_0_0_1_n_n.rhsNonContracting by decide)]
  rfl

/-- Rows against a 3×16 matrix: entry `(r, k)`. -/
theorem affineProd_apply (v : FVec Ideal S1024x3 .f32) (w : FVec Ideal S3x16 .f32) (r : Fin 1024) (k : Fin 16) :
    matmul dot_S1024x3_S3x16_S1024x16_1_0_0_1_n_n (some .fp32) v w (constant S1024x16 .f32 0x00000000#32) (ix2 r k)
      = ∑ d : Fin 3, v (ix2 r d) * w (ix2 d k) := by
  simp only [matmul]
  rw [Ideal.matmul_constant_zero_apply, ← Equiv.sum_comp (contrEquiv1 dot_S1024x3_S3x16_S1024x16_1_0_0_1_n_n 3 rfl rfl).symm]
  refine Finset.sum_congr rfl fun d _ => ?_
  have hd := contrEquiv1_symm_val dot_S1024x3_S3x16_S1024x16_1_0_0_1_n_n 3 rfl rfl d
  have el : dot_S1024x3_S3x16_S1024x16_1_0_0_1_n_n.lhsIdx (ix2 r k) ((contrEquiv1 dot_S1024x3_S3x16_S1024x16_1_0_0_1_n_n 3 rfl rfl).symm d) = ix2 r d :=
    funext fun a => Fin.ext (by
      match a with
      | ⟨0, _⟩ => exact affineProd_l0 _ _
      | ⟨1, _⟩ => exact (affineProd_l1 _ _).trans hd)
  have er : dot_S1024x3_S3x16_S1024x16_1_0_0_1_n_n.rhsIdx (ix2 r k) ((contrEquiv1 dot_S1024x3_S3x16_S1024x16_1_0_0_1_n_n 3 rfl rfl).symm d) = ix2 d k :=
    funext fun a => Fin.ext (by
      match a with
      | ⟨0, _⟩ => exact (affineProd_r0 _ _).trans hd
      | ⟨1, _⟩ => exact affineProd_r1 _ _)
  rw [el, er]

theorem weighted_l0 (i : S1024x16.Idx) (q : dot_S1024x512_S512x16_S1024x16_1_0_0_1_n_n.contr.Idx) :
    (dot_S1024x512_S512x16_S1024x16_1_0_0_1_n_n.lhsIdx i q 0).val = (i 0).val := by
  unfold DotDims.lhsIdx
  rw [dif_neg (show ¬(0 : Fin S1024x512.rank) ∈ dot_S1024x512_S512x16_S1024x16_1_0_0_1_n_n.lhsBatch by decide),
    dif_pos (show (0 : Fin S1024x512.rank) ∈ dot_S1024x512_S512x16_S1024x16_1_0_0_1_n_n.lhsNonContracting by decide)]
  rfl
theorem weighted_l1 (i : S1024x16.Idx) (q : dot_S1024x512_S512x16_S1024x16_1_0_0_1_n_n.contr.Idx) :
    (dot_S1024x512_S512x16_S1024x16_1_0_0_1_n_n.lhsIdx i q 1).val = (q ⟨0, by decide⟩).val :=
  dot_S1024x512_S512x16_S1024x16_1_0_0_1_n_n.lhsIdx_val_of_single rfl i q
theorem weighted_r0 (i : S1024x16.Idx) (q : dot_S1024x512_S512x16_S1024x16_1_0_0_1_n_n.contr.Idx) :
    (dot_S1024x512_S512x16_S1024x16_1_0_0_1_n_n.rhsIdx i q 0).val = (q ⟨0, by decide⟩).val :=
  dot_S1024x512_S512x16_S1024x16_1_0_0_1_n_n.rhsIdx_val_of_single rfl i q
theorem weighted_r1 (i : S1024x16.Idx) (q : dot_S1024x512_S512x16_S1024x16_1_0_0_1_n_n.contr.Idx) :
    (dot_S1024x512_S512x16_S1024x16_1_0_0_1_n_n.rhsIdx i q 1).val = (i 1).val := by
  unfold DotDims.rhsIdx
  rw [dif_neg (show ¬(1 : Fin S512x16.rank) ∈ dot_S1024x512_S512x16_S1024x16_1_0_0_1_n_n.rhsBatch by decide),
    dif_pos (show (1 : Fin S512x16.rank) ∈ dot_S1024x512_S512x16_S1024x16_1_0_0_1_n_n.rhsNonContracting by decide)]
  rfl

/-- The 1024×512 block of cubed distances against the 512×16 weights: entry `(r, k)`. -/
theorem weighted_apply (v : FVec Ideal S1024x512 .bf16) (w : FVec Ideal S512x16 .bf16) (r : Fin 1024) (k : Fin 16) :
    matmul dot_S1024x512_S512x16_S1024x16_1_0_0_1_n_n none v w (constant S1024x16 .f32 0x00000000#32) (ix2 r k)
      = ∑ j : Fin 512, v (ix2 r j) * w (ix2 j k) := by
  simp only [matmul]
  rw [Ideal.matmul_constant_zero_apply, ← Equiv.sum_comp (contrEquiv1 dot_S1024x512_S512x16_S1024x16_1_0_0_1_n_n 512 rfl rfl).symm]
  refine Finset.sum_congr rfl fun d _ => ?_
  have hd := contrEquiv1_symm_val dot_S1024x512_S512x16_S1024x16_1_0_0_1_n_n 512 rfl rfl d
  have el : dot_S1024x512_S512x16_S1024x16_1_0_0_1_n_n.lhsIdx (ix2 r k) ((contrEquiv1 dot_S1024x512_S512x16_S1024x16_1_0_0_1_n_n 512 rfl rfl).symm d) = ix2 r d :=
    funext fun a => Fin.ext (by
      match a with
      | ⟨0, _⟩ => exact weighted_l0 _ _
      | ⟨1, _⟩ => exact (weighted_l1 _ _).trans hd)
  have er : dot_S1024x512_S512x16_S1024x16_1_0_0_1_n_n.rhsIdx (ix2 r k) ((contrEquiv1 dot_S1024x512_S512x16_S1024x16_1_0_0_1_n_n 512 rfl rfl).symm d) = ix2 d k :=
    funext fun a => Fin.ext (by
      match a with
      | ⟨0, _⟩ => exact (weighted_r0 _ _).trans hd
      | ⟨1, _⟩ => exact weighted_r1 _ _)
  rw [el, er]

/-! ## The cubed distance at an entry -/

/-- The pointwise chain from the three parts of the squared distance to the cubed distance, at one entry: whatever
    arrays hold the parts, the entry is `cubeRoot` of their entries. -/
theorem cube_apply (A B M : FVec Ideal S1024x512 .f32) (hb : FTy.bits .bf16 < FTy.bits .f32) (r : Fin 1024) (j : Fin 512)
    (xx cc xc : EReal) (hA : A (ix2 r j) = xx) (hB : B (ix2 r j) = cc) (hM : M (ix2 r j) = xc) :
    truncf .bf16 (mulf
        (maximumf (subf (addf A B) (mulf (broadcast S1024x512 (Scalar.ofBits .f32 0x40000000#32)) M))
          (broadcast S1024x512 (Scalar.ofBits .f32 0x2EDBE6FF#32)))
        (sqrt (maximumf (subf (addf A B) (mulf (broadcast S1024x512 (Scalar.ofBits .f32 0x40000000#32)) M))
          (broadcast S1024x512 (Scalar.ofBits .f32 0x2EDBE6FF#32))))) hb (ix2 r j)
      = cubeRoot xx cc xc := by
  subst hA hB hM
  rfl

/-! ## The two payloads -/

/-- The block's 512 centres' contributions to entry `(r, k)`. -/
def blockTerm (x0 : Vec Ideal S1x1024x3 .f32) (x1 : Vec Ideal S1x512x3 .f32) (x2 : Vec Ideal S1x512x16 .f32)
    (r : Fin 1024) (k : Fin 16) : EReal :=
  ∑ j : Fin 512, centreTerm x0 x1 x2 (0 : Fin 1) r k j

/-- THE STEP at an entry: the running block's entry plus the block's contributions. -/
theorem pay4_apply (x0 : Vec Ideal S1x1024x3 .f32) (x1 : Vec Ideal S1x512x3 .f32) (x2 : Vec Ideal S1x512x16 .f32)
    (acc : Vec Ideal S1x1024x16 .f32) (r : Fin 1024) (k : Fin 16) :
    k0_pay4 x0 x1 x2 acc (ix2 r k) = acc (ix3 (0 : Fin 1) r k) + blockTerm x0 x1 x2 r k := by
  unfold k0_pay4 k0_pay2
  dsimp only
  refine (addf_apply _ _ _).trans ?_
  refine congrArg₂ (· + ·) (shapeCast_1ab_ab_apply acc _ r k) ?_
  refine (weighted_apply _ _ r k).trans ?_
  refine Finset.sum_congr rfl fun j _ => ?_
  refine congrArg₂ (· * ·) ?_ (shapeCast_1ab_ab_apply x2 _ j k)
  refine cube_apply _ _ _ _ r j _ _ _ ?_ ?_ ?_
  · refine (Cert.LibKeepdims.broadcastTo_a1_ab_apply _ _ r j).trans ?_
    refine (Cert.LibKeepdims.shapeCast_a_a1_apply _ _ r (0 : Fin 1)).trans ?_
    refine (rowSq1024 _ _ _ _ r).trans ?_
    exact Finset.sum_congr rfl fun d _ => by rw [shapeCast_1ab_ab_apply x0 _ r d]
  · refine (broadcastTo_1b_ab_apply _ _ r j).trans ?_
    refine (transpose_ix2_apply _ _ (0 : Fin 1) j).trans ?_
    refine (Cert.LibKeepdims.shapeCast_a_a1_apply _ _ j (0 : Fin 1)).trans ?_
    refine (rowSq512 _ _ _ _ j).trans ?_
    exact Finset.sum_congr rfl fun d _ => by rw [shapeCast_1ab_ab_apply x1 _ j d]
  · refine (cross_apply _ _ r j).trans ?_
    exact Finset.sum_congr rfl fun d _ => by rw [shapeCast_1ab_ab_apply x0 _ r d, shapeCast_1ab_ab_apply x1 _ j d]

/-- THE RESET's first store at an entry: the affine part of the row. -/
theorem pay3_apply (x0 : Vec Ideal S1x1024x3 .f32) (x3 : Vec Ideal S1x4x16 .f32) (u : Fin 1) (r : Fin 1024) (k : Fin 16) :
    k0_pay3 x0 x3 (ix3 u r k) = affine x0 x3 (0 : Fin 1) r k := by
  unfold k0_pay3 k0_pay2
  dsimp only
  refine (shapeCast_ab_1ab_apply _ _ u r k).trans ?_
  refine (addf_apply _ _ _).trans ?_
  refine congrArg₂ (· + ·) ?_ ?_
  · refine (affineProd_apply _ _ r k).trans ?_
    refine Finset.sum_congr rfl fun d _ => ?_
    refine congrArg₂ (· * ·) (shapeCast_1ab_ab_apply x0 _ r d) ?_
    refine (slice2_axis0_apply 0 _ _ d k (Fin.castSucc d) (by simp)).trans ?_
    exact shapeCast_1ab_ab_apply x3 _ (Fin.castSucc d) k
  · refine (broadcastTo_1b_ab_apply _ _ r k).trans ?_
    refine (slice2_axis0_apply 3 _ _ (0 : Fin 1) k (3 : Fin 4) (by decide)).trans ?_
    exact shapeCast_1ab_ab_apply x3 _ (3 : Fin 4) k

/-- The store's own cast: the block `[1024, 16]` seen as `[1, 1024, 16]`. -/
theorem pay1_apply (v : FVec Ideal S1024x16 .f32) (u : Fin 1) (r : Fin 1024) (k : Fin 16) :
    k0_pay1 v (ix3 u r k) = v (ix2 r k) := by
  unfold k0_pay1
  exact shapeCast_ab_1ab_apply v _ u r k

end Cert.KernelIdeal.Payload

end
-- ==== Proof.KernelWhole.lean ====
/-
  The kernel's result array, entry by entry, as the interpolant of the argument arrays.

  The grid has 4 × 8 × 8 points; point `t` works on batch `t / 64`, on the block of 1024 query rows number
  `(t / 8) % 8`, and on the block of 512 centres number `t % 8`.  The eight consecutive points `8ρ, …, 8ρ + 7` of
  a run share their batch and their query rows and sweep the eight blocks of centres; the output block is set at the
  run's first point to the affine part plus that point's contributions, each later point adds its own contributions,
  and the last point's block is what the array receives.  So entry `(p, q, k)` of the array — held by the run
  `ρ = 8·p + q / 1024`, at row `q % 1024` of its block — is the affine part plus the sum over the run's eight points
  of the sums over their 512 centres: the interpolant of Proof/RbfSpec.lean, read off the argument arrays through the
  blocks' positions.
-/
import proofs.«180637_j43404939493678_1_alg».proof.Proof.Gen.KernelIdeal.Value
import proofs.«180637_j43404939493678_1_alg».proof.Proof.KernelPayload

noncomputable section

namespace Cert.KernelIdeal.Whole

open Cert.KernelIdeal Cert.KernelIdeal.Gen Cert.KernelIdeal.Value Cert.KernelIdeal.Payload Idealize.ShloMosaic
  Idealize.ShloMosaic.TcCoe Idealize.ShloMosaic.ValueIdx Cert.Rbf

variable (m : (ℓ : Loc nD τ sig) → Buf (Elt Ideal) ℓ)

/-! ## Where each input block sits -/

/-- The printed index maps, decided over the grid's 256 points: batch `t / 64` for every window, query block
    `(t / 8) % 8`, centre block `t % 8`. -/
theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = t.val % 8 ∧ win0_2.index t (2 : Fin 3) = 0
    ∧ win0_3.index t (0 : Fin 3) = t.val / 64 ∧ win0_3.index t (1 : Fin 3) = 0 ∧ win0_3.index t (2 : Fin 3) = 0 :=
  (by decide +kernel : ∀ t : Fin grid0.N, _)

/-- The query block at point `t`, read off the array of queries. -/
theorem read0 (c : Dev nD) (t : Fin cfg0.N) (u : Fin 1) (r : Fin 1024) (d : Fin 3) (p : Fin 4) (q : Fin 8192)
    (hp : t.val / 64 = p.val) (hq : t.val / 8 % 8 * 1024 + r.val = q.val) :
    iblk m c 0 t (ix3 u r d) = V m c main_arg0 (ix3 p q d) := by
  obtain ⟨e0, e1, e2, -⟩ := idx_facts t
  show V m c main_arg0 (((cfg0.win 0).blk t).view.emb (ix3 u r d)) = V m c main_arg0 (ix3 p q d)
  refine congrArg (V m c main_arg0) (funext fun a => Fin.ext ?_)
  match a with
  | ⟨0, _⟩ => show win0_0.index t (0 : Fin 3) * 1 + 1 * u.val = p.val; have := u.isLt; omega
  | ⟨1, _⟩ => show win0_0.index t (1 : Fin 3) * 1024 + 1 * r.val = q.val; omega
  | ⟨2, _⟩ => show win0_0.index t (2 : Fin 3) * 3 + 1 * d.val = d.val; omega

/-- The centre block at point `t`, read off the array of centres. -/
theorem read1 (c : Dev nD) (t : Fin cfg0.N) (u : Fin 1) (j : Fin 512) (d : Fin 3) (p : Fin 4) (J : Fin 4096)
    (hp : t.val / 64 = p.val) (hJ : t.val % 8 * 512 + j.val = J.val) :
    iblk m c 1 t (ix3 u j d) = V m c main_arg1 (ix3 p J d) := by
  obtain ⟨-, -, -, e0, e1, e2, -⟩ := idx_facts t
  show V m c main_arg1 (((cfg0.win 1).blk t).view.emb (ix3 u j d)) = V m c main_arg1 (ix3 p J d)
  refine congrArg (V m c main_arg1) (funext fun a => Fin.ext ?_)
  match a with
  | ⟨0, _⟩ => show win0_1.index t (0 : Fin 3) * 1 + 1 * u.val = p.val; have := u.isLt; omega
  | ⟨1, _⟩ => show win0_1.index t (1 : Fin 3) * 512 + 1 * j.val = J.val; omega
  | ⟨2, _⟩ => show win0_1.index t (2 : Fin 3) * 3 + 1 * d.val = d.val; omega

/-- The weight block at point `t`, read off the array of weights. -/
theorem read2 (c : Dev nD) (t : Fin cfg0.N) (u : Fin 1) (j : Fin 512) (k : Fin 16) (p : Fin 4) (J : Fin 4096)
    (hp : t.val / 64 = p.val) (hJ : t.val % 8 * 512 + j.val = J.val) :
    iblk m c 2 t (ix3 u j k) = V m c main_arg2 (ix3 p J k) := by
  obtain ⟨-, -, -, -, -, -, e0, e1, e2, -⟩ := idx_facts t
  show V m c main_arg2 (((cfg0.win 2).blk t).view.emb (ix3 u j k)) = V m c main_arg2 (ix3 p J k)
  refine congrArg (V m c main_arg2) (funext fun a => Fin.ext ?_)
  match a with
  | ⟨0, _⟩ => show win0_2.index t (0 : Fin 3) * 1 + 1 * u.val = p.val; have := u.isLt; omega
  | ⟨1, _⟩ => show win0_2.index t (1 : Fin 3) * 512 + 1 * j.val = J.val; omega
  | ⟨2, _⟩ => show win0_2.index t (2 : Fin 3) * 16 + 1 * k.val = k.val; omega

/-- The 4×16 block at point `t`, read off the array of affine coefficients. -/
theorem read3 (c : Dev nD) (t : Fin cfg0.N) (u : Fin 1) (e : Fin 4) (k : Fin 16) (p : Fin 4)
    (hp : t.val / 64 = p.val) :
    iblk m c 3 t (ix3 u e k) = V m c main_arg3 (ix3 p e k) := by
  obtain ⟨-, -, -, -, -, -, -, -, -, e0, e1, e2⟩ := idx_facts t
  show V m c main_arg3 (((cfg0.win 3).blk t).view.emb (ix3 u e k)) = V m c main_arg3 (ix3 p e k)
  refine congrArg (V m c main_arg3) (funext fun a => Fin.ext ?_)
  match a with
  | ⟨0, _⟩ => show win0_3.index t (0 : Fin 3) * 1 + 1 * u.val = p.val; have := u.isLt; omega
  | ⟨1, _⟩ => show win0_3.index t (1 : Fin 3) * 4 + 1 * e.val = e.val; omega
  | ⟨2, _⟩ => show win0_3.index t (2 : Fin 3) * 16 + 1 * k.val = k.val; omega

/-! ## The interpolant's pieces depend only on the entries they read -/

theorem affine_congr {a b a' b' : ℕ} (X : (⟨3, ![a, b, 3]⟩ : Shape).Idx → EReal) (Vc : (⟨3, ![a, 4, 16]⟩ : Shape).Idx → EReal)
    (X' : (⟨3, ![a', b', 3]⟩ : Shape).Idx → EReal) (Vc' : (⟨3, ![a', 4, 16]⟩ : Shape).Idx → EReal)
    (p : Fin a) (q : Fin b) (p' : Fin a') (q' : Fin b') (k : Fin 16)
    (hX : ∀ d, X (ix3 p q d) = X' (ix3 p' q' d)) (hV : ∀ e, Vc (ix3 p e k) = Vc' (ix3 p' e k)) :
    affine X Vc p q k = affine X' Vc' p' q' k := by
  unfold affine
  simp only [hX, hV]

theorem centreTerm_congr {a b n a' b' n' : ℕ} (X : (⟨3, ![a, b, 3]⟩ : Shape).Idx → EReal)
    (C : (⟨3, ![a, n, 3]⟩ : Shape).Idx → EReal) (W : (⟨3, ![a, n, 16]⟩ : Shape).Idx → EReal)
    (X' : (⟨3, ![a', b', 3]⟩ : Shape).Idx → EReal) (C' : (⟨3, ![a', n', 3]⟩ : Shape).Idx → EReal)
    (W' : (⟨3, ![a', n', 16]⟩ : Shape).Idx → EReal)
    (p : Fin a) (q : Fin b) (j : Fin n) (p' : Fin a') (q' : Fin b') (j' : Fin n') (k : Fin 16)
    (hX : ∀ d, X (ix3 p q d) = X' (ix3 p' q' d)) (hC : ∀ d, C (ix3 p j d) = C' (ix3 p' j' d))
    (hW : W (ix3 p j k) = W' (ix3 p' j' k)) :
    centreTerm X C W p q k j = centreTerm X' C' W' p' q' k j' := by
  unfold centreTerm sqNorm Cert.Rbf.inner
  simp only [hX, hC, hW]

/-! ## The run's fold, unrolled -/

/-- A function of the row and the channel, read at an index of the `[1, 1024, 16]` block. -/
def atRow (f : Fin 1024 → Fin 16 → EReal) (y : S1x1024x16.Idx) : EReal := f (y 1) (y 2)

theorem atRow_ix3 (f : Fin 1024 → Fin 16 → EReal) (u : Fin 1) (r : Fin 1024) (k : Fin 16) : atRow f (ix3 u r k) = f r k := rfl

/-- What point `n` adds to the output block: its 512 centres' contributions (zero past the grid, where it is never read). -/
def addend (c : Dev nD) (n : ℕ) : S1x1024x16.Idx → EReal :=
  if h : n < cfg0.N then
    atRow fun r k => blockTerm (iblk m c 0 ⟨n, h⟩) (iblk m c 1 ⟨n, h⟩) (iblk m c 2 ⟨n, h⟩) r k
  else fun _ => 0

theorem addend_of_lt (c : Dev nD) (n : ℕ) (h : n < cfg0.N) (u : Fin 1) (r : Fin 1024) (k : Fin 16) :
    addend m c n (ix3 u r k) = blockTerm (iblk m c 0 ⟨n, h⟩) (iblk m c 1 ⟨n, h⟩) (iblk m c 2 ⟨n, h⟩) r k := by
  unfold addend
  rw [dif_pos h]
  rfl

/-- What a run starts from: the affine part of its rows. -/
def base (c : Dev nD) (b : ℕ) (h : b < cfg0.N) : S1x1024x16.Idx → EReal :=
  atRow fun r k => affine (a := 1) (b := 1024) (iblk m c 0 ⟨b, h⟩) (iblk m c 3 ⟨b, h⟩) (0 : Fin 1) r k

/-- One point's step at an entry. -/
theorem step_entry (x0 : Vec Ideal S1x1024x3 .f32) (x1 : Vec Ideal S1x512x3 .f32) (x2 : Vec Ideal S1x512x16 .f32)
    (acc : Vec Ideal S1x1024x16 .f32) (u : Fin 1) (r : Fin 1024) (k : Fin 16) :
    k0_pay1 (k0_pay4 x0 x1 x2 acc) (ix3 u r k) = acc (ix3 u r k) + blockTerm x0 x1 x2 r k := by
  have hu : u = 0 := Subsingleton.elim _ _
  subst hu
  exact (pay1_apply _ (0 : Fin 1) r k).trans (pay4_apply x0 x1 x2 acc r k)

/-- THE FOLD of a run of eight points from `b`, at an entry: the affine part plus the eight points' addends. -/
theorem fold_apply (c : Dev nD) (b : ℕ) (hb0 : b < cfg0.N) (hb : b + 7 < cfg0.N) (y : S1x1024x16.Idx) :
    Pipeline.accAt (reset4 m c) (step4 m c) b 7 hb y = base m c b hb0 y + ∑ s ∈ Finset.range 8, addend m c (b + s) y := by
  refine Pipeline.accAt_add_apply (reset4 m c) (step4 m c) (base m c b hb0) (addend m c) b 7 ?_ ?_ 7 le_rfl hb y
  · intro h y
    obtain ⟨u, r, k, rfl⟩ : ∃ (u : Fin 1) (r : Fin 1024) (k : Fin 16), y = ix3 u r k := ⟨y 0, y 1, y 2, eq_ix3 y⟩
    rw [addend_of_lt m c b h u r k]
    refine (step_entry (iblk m c 0 ⟨b, h⟩) (iblk m c 1 ⟨b, h⟩) (iblk m c 2 ⟨b, h⟩)
      (k0_pay3 (iblk m c 0 ⟨b, h⟩) (iblk m c 3 ⟨b, h⟩)) u r k).trans ?_
    exact congrArg (· + _) (pay3_apply (iblk m c 0 ⟨b, h⟩) (iblk m c 3 ⟨b, h⟩) u r k)
  · intro n h acc y _ _
    obtain ⟨u, r, k, rfl⟩ : ∃ (u : Fin 1) (r : Fin 1024) (k : Fin 16), y = ix3 u r k := ⟨y 0, y 1, y 2, eq_ix3 y⟩
    rw [addend_of_lt m c n h u r k]
    exact step_entry (iblk m c 0 ⟨n, h⟩) (iblk m c 1 ⟨n, h⟩) (iblk m c 2 ⟨n, h⟩) acc u r k

/-! ## The array -/

/-- THE KERNEL'S RESULT at entry `(p, q, k)` is the interpolant of the argument arrays. -/
theorem G4_apply (c : Dev nD) (p : Fin 4) (q : Fin 8192) (k : Fin 16) :
    G4 m c (ix3 p q k) = interpolant (V m c main_arg0) (V m c main_arg1) (V m c main_arg2) (V m c main_arg3) p q k := by
  have hN : cfg0.N = 256 := N_0
  have hp := p.isLt
  have hq := q.isLt
  have hk := k.isLt
  have hrun : run4Of (ix3 p q k) = 8 * p.val + q.val / 1024 := by
    show 8 * (p.val / 1 - 0) + 1 * (q.val / 1024 - 0) + 1 * (k.val / 16 - 0) = _
    omega
  have hlt : 8 * run4Of (ix3 p q k) + 7 < cfg0.N := by rw [hrun, hN]; omega
  have hlt0 : 8 * run4Of (ix3 p q k) < cfg0.N := by omega
  have hloc : loc4Of (ix3 p q k) = ix3 (0 : Fin 1) (⟨q.val % 1024, Nat.mod_lt _ (by decide)⟩ : Fin 1024) k :=
    funext fun a => Fin.ext (by
      match a with
      | ⟨0, _⟩ => show p.val % 1 = 0; omega
      | ⟨1, _⟩ => rfl
      | ⟨2, _⟩ => show k.val % 16 = k.val; omega)
  unfold G4
  rw [dif_pos hlt, hloc, fold_apply m c _ hlt0 hlt]
  unfold interpolant
  refine congrArg₂ (· + ·) ?_ (Finset.sum_congr rfl fun s hs => ?_)
  · show affine (a := 1) (b := 1024) (iblk m c 0 ⟨_, hlt0⟩) (iblk m c 3 ⟨_, hlt0⟩) (0 : Fin 1) _ k = _
    refine affine_congr _ _ _ _ _ _ _ _ k (fun d => ?_) (fun e => ?_)
    · exact read0 m c ⟨_, hlt0⟩ (0 : Fin 1) _ d p q (by show 8 * run4Of (ix3 p q k) / 64 = p.val; omega)
        (by show 8 * run4Of (ix3 p q k) / 8 % 8 * 1024 + q.val % 1024 = q.val; omega)
    · exact read3 m c ⟨_, hlt0⟩ (0 : Fin 1) e k p (by show 8 * run4Of (ix3 p q k) / 64 = p.val; omega)
  · have hs8 : s < 8 := Finset.mem_range.mp hs
    have hn : 8 * run4Of (ix3 p q k) + s < cfg0.N := by omega
    rw [addend_of_lt m c _ hn]
    unfold blockTerm
    refine Finset.sum_congr rfl fun j _ => ?_
    have hj := j.isLt
    refine centreTerm_congr _ _ _ _ _ _ _ _ _ _ _ _ k (fun d => ?_) (fun d => ?_) ?_
    · exact read0 m c ⟨_, hn⟩ (0 : Fin 1) _ d p q (by show (8 * run4Of (ix3 p q k) + s) / 64 = p.val; omega)
        (by show (8 * run4Of (ix3 p q k) + s) / 8 % 8 * 1024 + q.val % 1024 = q.val; omega)
    · exact read1 m c ⟨_, hn⟩ (0 : Fin 1) j d p _ (by show (8 * run4Of (ix3 p q k) + s) / 64 = p.val; omega)
        (by show (8 * run4Of (ix3 p q k) + s) % 8 * 512 + j.val = (512 * s + j.val) % 4096; omega)
    · exact read2 m c ⟨_, hn⟩ (0 : Fin 1) j k p _ (by show (8 * run4Of (ix3 p q k) + s) / 64 = p.val; omega)
        (by show (8 * run4Of (ix3 p q k) + s) % 8 * 512 + j.val = (512 * s + j.val) % 4096; omega)

/-- … so the whole array is the interpolant, entry by entry. -/
theorem G4_eq (c : Dev nD) :
    G4 m c = fun i => interpolant (V m c main_arg0) (V m c main_arg1) (V m c main_arg2) (V m c main_arg3) (i 0) (i 1) (i 2) := by
  funext i
  obtain ⟨p, q, k, rfl⟩ : ∃ (p : Fin 4) (q : Fin 8192) (k : Fin 16), i = ix3 p q k := ⟨i 0, i 1, i 2, eq_ix3 i⟩
  exact G4_apply m c p q k

end Cert.KernelIdeal.Whole

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.ReferenceAtIndex.lean ====
/-
  The reference's result read at one entry of the output array.

  Entry `(p, q, k)` of the reference is the sum over all 4096 centres of the cubed distance (written as the power
  `3/2` of the clamped squared distance) times the centre's weight, plus the row `[x, 1]` of the padded queries
  against the 4×16 matrix.  Read stage by stage: the squared norms are sums over the three coordinates started from
  zero, the broadcasts only move indices, the padded row's fourth entry is the constant one.  Regrouping the 4096
  centres as eight blocks of 512, writing the power as the square times its root, and taking the affine part first
  gives the interpolant of Proof/RbfSpec.lean; only commutativity and associativity of the sum are used.
-/
import proofs.«180637_j43404939493678_1_alg».proof.Proof.Gen.ReferenceIdeal.Read
import proofs.«180637_j43404939493678_1_alg».proof.Proof.RbfSpec
import proofs.«180637_j43404939493678_1_alg».proof.Proof.LibBlockSum
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.AtIndex

open Cert.ReferenceIdeal Cert.ReferenceIdeal.Read Idealize.ShloMosaic Idealize.ShloMosaic.ValueIdx Cert.Rbf

variable (X : (⟨S4x8192x3, .f32⟩ : BufTy).Contents (Elt Ideal)) (C : (⟨S4x4096x3, .f32⟩ : BufTy).Contents (Elt Ideal))
  (W : (⟨S4x4096x16, .f32⟩ : BufTy).Contents (Elt Ideal)) (V : (⟨S4x4x16, .f32⟩ : BufTy).Contents (Elt Ideal))

/-- The clamped squared distance from query `q` to centre `j` of batch `p`. -/
theorem clamp_apply (p : Fin 4) (q : Fin 8192) (j : Fin 4096) :
    val_main_v14 (F := Ideal) X C (ix3 p q j) = clampSq (sqNorm X p q) (sqNorm C p j) (inner X C p q j) := by
  have e1 : ∀ d : Fin 3, idx_main_v1 (idx_main_v2 (idx_main_v6 (ix3 p q j))) d = ix3 p q d := fun d =>
    funext fun a => Fin.ext (by match a with | ⟨0, _⟩ => rfl | ⟨1, _⟩ => rfl | ⟨2, _⟩ => rfl)
  have e2 : ∀ d : Fin 3, idx_main_v4 (idx_main_v5 (idx_main_v7 (ix3 p q j))) d = ix3 p j d := fun d =>
    funext fun a => Fin.ext (by match a with | ⟨0, _⟩ => rfl | ⟨1, _⟩ => rfl | ⟨2, _⟩ => rfl)
  have e3 : ∀ d : Fin 3, lidx_main_v9 (ix3 p q j) d = ix3 p q d := fun d =>
    funext fun a => Fin.ext (by match a with | ⟨0, _⟩ => rfl | ⟨1, _⟩ => rfl | ⟨2, _⟩ => rfl)
  have e4 : ∀ d : Fin 3, ridx_main_v9 (ix3 p q j) d = ix3 p j d := fun d =>
    funext fun a => Fin.ext (by match a with | ⟨0, _⟩ => rfl | ⟨1, _⟩ => rfl | ⟨2, _⟩ => rfl)
  rw [val_main_v14_apply, val_main_v12_apply, val_main_v8_apply, val_main_v6_apply, val_main_v2_apply, val_main_v1_apply,
    val_main_v7_apply, val_main_v5_apply, val_main_v4_apply, val_main_v11_apply, val_main_v10_apply, val_main_v9_apply,
    val_main_v13_apply]
  simp only [val_main_v0_apply, val_main_v3_apply, val_main_cst_apply, val_main_cst_0_apply, val_main_cst_1_apply,
    val_main_cst_2_apply, e1, e2, e3, e4, Ideal.ofBits_def, Ideal.mulf_def, Ideal.addf_def, Ideal.subf_def,
    Ideal.maximumf_def, Ideal.ofBits_zero_f32, zero_add]
  rfl

/-- The cubed distance, as the reference writes it. -/
theorem pow_apply (p : Fin 4) (q : Fin 8192) (j : Fin 4096) :
    val_main_v16 (F := Ideal) X C (ix3 p q j) = cubePow (sqNorm X p q) (sqNorm C p j) (inner X C p q j) := by
  rw [val_main_v16_apply, val_main_v15_apply, clamp_apply]
  rfl

/-- The padded queries `[x, 1]`: the first three entries of a row are the query's coordinates … -/
theorem padded_coord (p : Fin 4) (q : Fin 8192) (d : Fin 3) :
    val_main_v20 (F := Ideal) X (ix3 p q (Fin.castSucc d)) = X (ix3 p q d) := by
  unfold val_main_v20
  exact concatenate_pair_apply_left _ X _ _ (ix3 p q (Fin.castSucc d)) rfl (ix3 p q d) (fun b => by
    match b with
    | ⟨0, _⟩ => rfl
    | ⟨1, _⟩ => rfl
    | ⟨2, _⟩ => rfl)

/-- … and the fourth is one. -/
theorem padded_one (p : Fin 4) (q : Fin 8192) : val_main_v20 (F := Ideal) X (ix3 p q (3 : Fin 4)) = 1 := by
  unfold val_main_v20
  refine (concatenate_pair_apply_right _ X (val_main_v19 (F := Ideal)) _ (ix3 p q (3 : Fin 4)) rfl rfl (ix3 p q (0 : Fin 1)) (fun b hb => by
    match b with
    | ⟨0, _⟩ => rfl
    | ⟨1, _⟩ => rfl
    | ⟨2, _⟩ => exact absurd rfl hb) rfl).trans ?_
  rw [val_main_v19_apply]
  exact Ideal.ofBits_one_f32

/-- The padded row against the 4×16 matrix is the affine part. -/
theorem affine_apply (p : Fin 4) (q : Fin 8192) (k : Fin 16) :
    (∑ e : Fin 4, val_main_v20 (F := Ideal) X (ix3 p q e) * V (ix3 p e k)) = affine X V p q k := by
  rw [Fin.sum_univ_castSucc]
  unfold affine
  refine congrArg₂ (· + ·) (Finset.sum_congr rfl fun d _ => by rw [padded_coord]) ?_
  show val_main_v20 (F := Ideal) X (ix3 p q (3 : Fin 4)) * V (ix3 p (3 : Fin 4) k) = V (ix3 p (3 : Fin 4) k)
  rw [padded_one, one_mul]

/-- THE REFERENCE at entry `(p, q, k)` is the interpolant. -/
theorem result_apply (p : Fin 4) (q : Fin 8192) (k : Fin 16) :
    val_main_v22 (F := Ideal) X C W V (ix3 p q k) = interpolant X C W V p q k := by
  have l17 : ∀ j : Fin 4096, lidx_main_v17 (ix3 p q k) j = ix3 p q j := fun j =>
    funext fun a => Fin.ext (by match a with | ⟨0, _⟩ => rfl | ⟨1, _⟩ => rfl | ⟨2, _⟩ => rfl)
  have r17 : ∀ j : Fin 4096, ridx_main_v17 (ix3 p q k) j = ix3 p j k := fun j =>
    funext fun a => Fin.ext (by match a with | ⟨0, _⟩ => rfl | ⟨1, _⟩ => rfl | ⟨2, _⟩ => rfl)
  have l21 : ∀ e : Fin 4, lidx_main_v21 (ix3 p q k) e = ix3 p q e := fun e =>
    funext fun a => Fin.ext (by match a with | ⟨0, _⟩ => rfl | ⟨1, _⟩ => rfl | ⟨2, _⟩ => rfl)
  have r21 : ∀ e : Fin 4, ridx_main_v21 (ix3 p q k) e = ix3 p e k := fun e =>
    funext fun a => Fin.ext (by match a with | ⟨0, _⟩ => rfl | ⟨1, _⟩ => rfl | ⟨2, _⟩ => rfl)
  rw [val_main_v22_apply, val_main_v17_apply, val_main_v21_apply]
  simp only [l17, r17, l21, r21, pow_apply, cubePow_eq_cubeRoot, affine_apply]
  unfold interpolant
  rw [Cert.LibBlockSum.sum_range_blocks 8 512 4096 rfl (by decide) (centreTerm X C W p q k)]
  exact add_comm _ _

end Cert.ReferenceIdeal.AtIndex

end
-- ==== Proof.lean ====
/-
  A polyharmonic (cubic radial basis) interpolator: the tiled kernel against the whole-array reference.

  For each batch `p`, query `q` and channel `k` both programs compute

      Σ_d x[p,q,d]·v[p,d,k] + v[p,3,k] + Σ_n φ(p,q,n)·w[p,n,k],     φ = (max (‖x‖² + ‖c‖² − 2⟨x,c⟩) ε)^(3/2).

  The kernel walks a 4 × 8 × 8 grid: for a block of 1024 queries it sets the output block to the affine part, then adds
  the contributions of the 4096 centres 512 at a time, writing the cube as `y·√y`; the reference takes one sum over
  all centres, writes the cube as the power `3/2`, pads the queries with a column of ones for the affine part, and adds
  it last.  On the extended reals the two agree entry by entry: a finite sum may be regrouped and reordered, the power
  `3/2` of a non-negative number is the number times its root (the clamp's floor `ε` is positive), and a product with
  one is the other factor.  No cancellation or distributivity is used, so the inputs' finiteness is not needed.

  Proof/RadialLaw.lean has the law for the cube, Proof/RbfSpec.lean the interpolant as one function of the four arrays,
  Proof/KernelPayload.lean and Proof/KernelWhole.lean the kernel's array as that function, Proof/ReferenceAtIndex.lean
  the reference's; here the two runs are set side by side on memories that agree on the arguments.  The kernel
  rewrites nothing when idealized, so that part of the claim is trivial.
-/
import proofs.«180637_j43404939493678_1_alg».proof.Defs
import proofs.«180637_j43404939493678_1_alg».proof.Proof.Gen.Kernel.Frame
import proofs.«180637_j43404939493678_1_alg».proof.Proof.Gen.KernelIdeal.Value
import proofs.«180637_j43404939493678_1_alg».proof.Proof.Gen.Pre_finite_inputs
import proofs.«180637_j43404939493678_1_alg».proof.Proof.Gen.ReferenceIdeal.Run
import proofs.«180637_j43404939493678_1_alg».proof.Proof.KernelWhole
import proofs.«180637_j43404939493678_1_alg».proof.Proof.ReferenceAtIndex
import Idealize.ShloMosaic.Adequacy
import Idealize.ShloMosaic.Init

noncomputable section

namespace Cert.Proof

open Idealize.ShloMosaic Idealize.SL.Sem Idealize.ShloMosaic.ValueIdx

/-- The idealized kernel terminates without a fault and leaves its arguments alone: its run, with the result dropped. -/
theorem frame_KernelIdeal : frame_KernelIdeal := fun m ρ _ =>
  (θ_run Cert.KernelIdeal.defs _ _).mono (fun _ h c => (h c).2) (Cert.KernelIdeal.Value.run (F := Ideal) m ρ)

/-- So does the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end with the same array: the interpolant of the
    arguments, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2.1, (hagree c).2.2.2]
  refine (Cert.ReferenceIdeal.Read.val_main_v22_eq _ _ _ _).trans ?_
  rw [Cert.KernelIdeal.Whole.G4_eq m c]
  funext i
  obtain ⟨p, q, k, rfl⟩ : ∃ (p : Fin 4) (q : Fin 8192) (k : Fin 16), i = ix3 p q k := ⟨i 0, i 1, i 2, eq_ix3 i⟩
  exact Cert.ReferenceIdeal.AtIndex.result_apply _ _ _ _ p q k

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
